-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x256 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 31
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x1, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S1x128, .f32⟩
  | .hbm, ⟨30, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  slices_S128x256_S128x128_0_0 : S128x256.Slices ![0, 0] S128x128
  transposes_S128x128_S128x128_1_0 : S128x128.Transposes [1, 0] S128x128
  slices_S128x256_S128x128_0_128 : S128x256.Slices ![0, 128] S128x128
  bcast_S128_S1x128_1 : S128.BroadcastsInDim S1x128 (![1] : Fin 1 → Fin S1x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S256x128 : Shape := ⟨2, ![256, 128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x256, .f32⟩
  | .hbm, ⟨41, _⟩ => ⟨S256x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/- The value both programs compute, as ONE function of the arrays, entry by entry on the extended reals.
   With `a` the per-node sums of neighbour rows (100000 × 128), `x` the node features (100000 × 128), `d` the in-degrees
   (100000), `w` the weight (128 × 256) and `b` the bias (128):
     out(n, o) = ( Σ_{k<128} (a(n,k) · ρ(d(n))) · w(o, k)  +  Σ_{k<128} x(n,k) · w(o, 128 + k) ) + b(o),
   where ρ(t) = 1 / max(t, 1) if t > 0 and 0 otherwise. The first sum is the mean-normalised neighbour half against the
   left half of the weight's columns, the second the node's own features against the right half. -/
import Idealize.ShloMosaic.PureOps.Ideal
import Idealize.ShloMosaic.Lib.ValueIdx

noncomputable section

open scoped BigOperators

open Idealize.ShloMosaic Idealize.ShloMosaic.ValueIdx

namespace Cert.Sage

/-- ρ: the guarded reciprocal of a degree, `1 / max(t, 1)` where `t > 0`, else `0` (the float words are 0.0 and 1.0). -/
def rho (t : Ideal .f32) : Ideal .f32 :=
  Scalar.select (FloatOps.cmpf (F := Ideal) .ogt t (Ideal.ofBits .f32 0x00000000#32))
    (Ideal.div (Ideal.ofBits .f32 0x3F800000#32) (max t (Ideal.ofBits .f32 0x3F800000#32)))
    (Ideal.ofBits .f32 0x00000000#32)

/-- The result at node `n`, output channel `o`. -/
def outAt (a x : (⟨2, ![100000, 128]⟩ : Shape).Idx → Ideal .f32) (d : (⟨1, ![100000]⟩ : Shape).Idx → Ideal .f32)
    (w : (⟨2, ![128, 256]⟩ : Shape).Idx → Ideal .f32) (b : (⟨1, ![128]⟩ : Shape).Idx → Ideal .f32)
    (n : Fin 100000) (o : Fin 128) : Ideal .f32 :=
  (∑ k : Fin 128, (a (ix2 n k) * rho (d (ix1 n))) * w (ix2 o (Fin.castAdd 128 k))
    + ∑ k : Fin 128, x (ix2 n k) * w (ix2 o (Fin.natAdd 128 k))) + b (ix1 o)

/-- The result array. -/
def out (a x : (⟨2, ![100000, 128]⟩ : Shape).Idx → Ideal .f32) (d : (⟨1, ![100000]⟩ : Shape).Idx → Ideal .f32)
    (w : (⟨2, ![128, 256]⟩ : Shape).Idx → Ideal .f32) (b : (⟨1, ![128]⟩ : Shape).Idx → Ideal .f32) :
    (⟨2, ![100000, 128]⟩ : Shape).Idx → Ideal .f32 :=
  fun i => outAt a x d w b (i 0) (i 1)

theorem out_ix2 (a x : (⟨2, ![100000, 128]⟩ : Shape).Idx → Ideal .f32) (d : (⟨1, ![100000]⟩ : Shape).Idx → Ideal .f32)
    (w : (⟨2, ![128, 256]⟩ : Shape).Idx → Ideal .f32) (b : (⟨1, ![128]⟩ : Shape).Idx → Ideal .f32)
    (n : Fin 100000) (o : Fin 128) : out a x d w b (ix2 n o) = outAt a x d w b n o := rfl

end Cert.Sage

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.KernelBody.lean ====
/- What the kernel body stores, entry by entry on the extended reals, as a function of the six blocks it loads: with
   `a` the block of aggregated rows, `x` the block of features (5000 × 128 each), `d` the block's degrees as a column
   (5000 × 1), `w₁`, `w₂` the two transposed weight halves (128 × 128) and `b` the bias row (1 × 128),
     stored(p, q) = ( Σ_k (a(p,k) · ρ(d(p,0))) · w₁(k,q)  +  Σ_k x(p,k) · w₂(k,q) ) + b(0,q).
   The changes of float format are the identity on the extended reals, each matrix product into the zero accumulator is
   its contraction sum, and the column of factors is broadcast along the lanes. -/
import proofs.«136580_j15152644620657_2_alg».proof.Proof.Gen.KernelIdeal.Skeleton
import proofs.«136580_j15152644620657_2_alg».proof.Proof.Spec
import proofs.«136580_j15152644620657_2_alg».proof.Proof.LibPlainMatmul
import proofs.«136580_j15152644620657_2_alg».proof.Proof.LibBroadcastReads
import Idealize.ShloMosaic.Lib.Pipeline.Value
import Idealize.ShloMosaic.Lib.ValueLayout

noncomputable section

open scoped BigOperators

namespace Cert.KernelIdeal.BodyValue

open Cert.KernelIdeal Cert.KernelIdeal.Gen Idealize.ShloMosaic Idealize.ShloMosaic.ValueIdx

/-- The body's matrix product (5000 × 128 by 128 × 128, into zeros) at `(p, q)`: the contraction sum. -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.Lib.PlainMatmul.plain_matmul_zero_apply (M := 5000) (K := 128) (N := 128) l r p q

/-- The stored value at `(p, q)` of the block. -/
theorem pay_apply (v0 : Vec Ideal S5000x1 .f32) (v10 v15 : Vec Ideal S5000x128 .f32) (v17 v20 : Vec Ideal S128x128 .f32)
    (v26 : Vec Ideal S1x128 .f32) (p : Fin 5000) (q : Fin 128) :
    k0_pay1 (F := Ideal) v0 v10 v15 v17 v20 v26 (ix2 p q)
      = (∑ k : Fin 128, (v10 (ix2 p k) * Cert.Sage.rho (v0 (ix2 p (0 : Fin 1)))) * v17 (ix2 k q)
          + ∑ k : Fin 128, v15 (ix2 p k) * v20 (ix2 k q)) + v26 (ix2 (0 : Fin 1) q) := by
  unfold k0_pay1
  simp only [shapeCast_self]
  rw [addf_apply, addf_apply, mm_apply, mm_apply, broadcastTo_1b_ab_apply]
  refine congrArg (· + v26 (ix2 (0 : Fin 1) q)) (congrArg (· + _) (Finset.sum_congr rfl fun k _ => ?_))
  rw [truncf_apply, truncf_apply, mulf_apply, Cert.Lib.BroadcastReads.broadcastTo_a1_ab_apply]
  rfl

end Cert.KernelIdeal.BodyValue

end
-- ==== Proof.KernelRows.lean ====
/- The kernel's output as ONE function `rowsOut` of the six arrays its windows stage — the aggregated rows A, the features
   X, the degree column D, the two transposed weight halves W₁, W₂, the bias row B —:
     rowsOut(n, o) = ( Σ_k (A(n,k) · ρ(D(n,0))) · W₁(k,o)  +  Σ_k X(n,k) · W₂(k,o) ) + B(0,o);
   that a stored entry of a block is an entry of `rowsOut` once the loaded blocks hold the arrays' entries it depends on
   (`block_entry`); and that with the degree column made from a degree vector, the two weight halves cut from the
   weight's columns 0..127 and 128..255 and transposed, and the bias row made from the bias vector, `rowsOut` is the
   specification `Cert.Sage.out` (`rowsOut_eq`: only layout reads, no arithmetic law). -/
import proofs.«136580_j15152644620657_2_alg».proof.Proof.KernelBody
import proofs.«136580_j15152644620657_2_alg».proof.Proof.Spec
import proofs.«136580_j15152644620657_2_alg».proof.Proof.LibBroadcastReads
import Idealize.ShloMosaic.Lib.Pipeline.Value
import Idealize.ShloMosaic.Lib.ValueLayout

noncomputable section

open scoped BigOperators

namespace Cert.KernelIdeal.RowsValue

open Cert.KernelIdeal Cert.KernelIdeal.Gen Idealize.ShloMosaic Idealize.ShloMosaic.ValueIdx

/-- The output at `(n, o)`, from the six arrays. -/
def rowsOutAt (A X : S100000x128.Idx → Ideal .f32) (D : S100000x1.Idx → Ideal .f32) (W1 W2 : S128x128.Idx → Ideal .f32)
    (B : S1x128.Idx → Ideal .f32) (n : Fin 100000) (o : Fin 128) : Ideal .f32 :=
  (∑ k : Fin 128, (A (ix2 n k) * Cert.Sage.rho (D (ix2 n (0 : Fin 1)))) * W1 (ix2 k o)
      + ∑ k : Fin 128, X (ix2 n k) * W2 (ix2 k o)) + B (ix2 (0 : Fin 1) o)

/-- The output array, from the six arrays. -/
def rowsOut (A X : S100000x128.Idx → Ideal .f32) (D : S100000x1.Idx → Ideal .f32) (W1 W2 : S128x128.Idx → Ideal .f32)
    (B : S1x128.Idx → Ideal .f32) : S100000x128.Idx → Ideal .f32 :=
  fun i => rowsOutAt A X D W1 W2 B (i 0) (i 1)

theorem rowsOut_ix2 (A X : S100000x128.Idx → Ideal .f32) (D : S100000x1.Idx → Ideal .f32) (W1 W2 : S128x128.Idx → Ideal .f32)
    (B : S1x128.Idx → Ideal .f32) (n : Fin 100000) (o : Fin 128) :
    rowsOut A X D W1 W2 B (ix2 n o) = rowsOutAt A X D W1 W2 B n o := rfl

/-- One stored entry of a block, at the block's `(p, q)`, is the entry `(n, o)` of `rowsOut`, once each loaded block is
    known to hold the arrays' entries that entry depends on. -/
theorem block_entry (A X : S100000x128.Idx → Ideal .f32) (D : S100000x1.Idx → Ideal .f32) (W1 W2 : S128x128.Idx → Ideal .f32)
    (B : S1x128.Idx → Ideal .f32)
    (x0 x1 : Vec Ideal S5000x128 .f32) (x2 : Vec Ideal S5000x1 .f32) (x3 x4 : Vec Ideal S128x128 .f32) (x5 : Vec Ideal S1x128 .f32)
    (p : Fin 5000) (q : Fin 128) (n : Fin 100000) (o : Fin 128)
    (h0 : ∀ k : Fin 128, x0 (ix2 p k) = A (ix2 n k))
    (h1 : ∀ k : Fin 128, x1 (ix2 p k) = X (ix2 n k))
    (h2 : x2 (ix2 p (0 : Fin 1)) = D (ix2 n (0 : Fin 1)))
    (h3 : ∀ k : Fin 128, x3 (ix2 k q) = W1 (ix2 k o))
    (h4 : ∀ k : Fin 128, x4 (ix2 k q) = W2 (ix2 k o))
    (h5 : x5 (ix2 (0 : Fin 1) q) = B (ix2 (0 : Fin 1) o)) :
    k0_pay1 (F := Ideal) x2 x0 x1 x3 x4 x5 (ix2 p q) = rowsOutAt A X D W1 W2 B n o := by
  rw [BodyValue.pay_apply]
  unfold rowsOutAt
  simp only [h0, h1, h2, h3, h4, h5]

/-- With the degree column made from the degree vector `d`, the weight halves cut from `w`'s columns and transposed, and
    the bias row made from `b`, the kernel's whole-array function is the specification. -/
theorem rowsOut_eq (a x0 : FVec Ideal S100000x128 .f32) (d : FVec Ideal S100000 .f32) (w : FVec Ideal S128x256 .f32)
    (b : FVec Ideal S128 .f32) :
    rowsOut a x0 (broadcastInDim S100000x1 ![0] bcast_S100000_S100000x1_0 d)
      (transpose S128x128 [1, 0] (extractStridedSlice S128x128 ![0, 0] w slices_S128x256_S128x128_0_0) transposes_S128x128_S128x128_1_0)
      (transpose S128x128 [1, 0] (extractStridedSlice S128x128 ![0, 128] w slices_S128x256_S128x128_0_128) transposes_S128x128_S128x128_1_0)
      (broadcastInDim S1x128 ![1] bcast_S128_S1x128_1 b)
    = Cert.Sage.out a x0 d w b := by
  funext i
  obtain ⟨n, o, rfl⟩ : ∃ (n : Fin 100000) (o : Fin 128), i = ix2 n o := ⟨i 0, i 1, eq_ix2 i⟩
  rw [rowsOut_ix2, Cert.Sage.out_ix2]
  unfold rowsOutAt Cert.Sage.outAt
  have hd : broadcastInDim S100000x1 ![0] bcast_S100000_S100000x1_0 d (ix2 n (0 : Fin 1)) = d (ix1 n) :=
    Cert.Lib.BroadcastReads.broadcastInDim_a_a1_apply d bcast_S100000_S100000x1_0 n 0
  have hb : broadcastInDim S1x128 ![1] bcast_S128_S1x128_1 b (ix2 (0 : Fin 1) o) = b (ix1 o) :=
    Cert.Lib.BroadcastReads.broadcastInDim_b_1b_apply b bcast_S128_S1x128_1 0 o
  have hw1 : ∀ k : Fin 128, transpose S128x128 [1, 0] (extractStridedSlice S128x128 ![0, 0] w slices_S128x256_S128x128_0_0)
      transposes_S128x128_S128x128_1_0 (ix2 k o) = w (ix2 o (Fin.castAdd 128 k)) := fun k =>
    (transpose_ix2_apply _ transposes_S128x128_S128x128_1_0 k o).trans
      (slice2_axis1_apply 0 w slices_S128x256_S128x128_0_0 o k (Fin.castAdd 128 k) (by show k.val = 0 + k.val; omega))
  have hw2 : ∀ k : Fin 128, transpose S128x128 [1, 0] (extractStridedSlice S128x128 ![0, 128] w slices_S128x256_S128x128_0_128)
      transposes_S128x128_S128x128_1_0 (ix2 k o) = w (ix2 o (Fin.natAdd 128 k)) := fun k =>
    (transpose_ix2_apply _ transposes_S128x128_S128x128_1_0 k o).trans
      (slice2_axis1_apply 128 w slices_S128x256_S128x128_0_128 o k (Fin.natAdd 128 k) (by show 128 + k.val = 128 + k.val; rfl))
  rw [hd, hb]
  simp only [hw1, hw2]

end Cert.KernelIdeal.RowsValue

end
-- ==== Proof.KernelArray.lean ====
/- From blocks to the array. The grid has 20 points; point t works on rows 5000·t … 5000·t + 4999 of the aggregated
   rows, of the features, of the degree column and of the output, and on the whole of the two weight halves and of the
   bias row. What point t writes back is therefore rows 5000·t … of the ONE whole-array function `rowsOut` of the six
   arrays the region finds (each entry depends only on its own row of the row-blocked arrays), the 20 row blocks tile
   the 100000 rows (row r lies in the block of point r / 5000), and so the output array ends at `rowsOut`. -/
import proofs.«136580_j15152644620657_2_alg».proof.Proof.Gen.KernelIdeal.Value
import proofs.«136580_j15152644620657_2_alg».proof.Proof.KernelRows
import Idealize.ShloMosaic.Lib.Pipeline.Value

noncomputable section

open scoped BigOperators

namespace Cert.KernelIdeal.ArrayValue

open Cert.KernelIdeal Cert.KernelIdeal.Gen Cert.KernelIdeal.RowsValue Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The printed index maps over the 20 points: the three row-blocked inputs move with the output (block row t, block
    column 0), the weight halves and the bias stay at block (0, 0). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The body's stored block at point `t`, computed from the point's blocks of ANY six arrays, is the point's block of
    `rowsOut` of those arrays: a block's row p is the array's row 5000·t + p in the four row-blocked windows, the columns
    and the small arrays are read in place. -/
theorem block_read (t : Fin cfg0.N) (A X : S100000x128.Idx → Ideal .f32) (D : S100000x1.Idx → Ideal .f32)
    (W1 W2 : S128x128.Idx → Ideal .f32) (B : S1x128.Idx → Ideal .f32) :
    (cfg0.win 6).cut (grid0.coords t) (k0_pay1 (F := Ideal)
        (((cfg0.win 2).blk t).view.read (Elt Ideal) D) (((cfg0.win 0).blk t).view.read (Elt Ideal) A)
        (((cfg0.win 1).blk t).view.read (Elt Ideal) X) (((cfg0.win 3).blk t).view.read (Elt Ideal) W1)
        (((cfg0.win 4).blk t).view.read (Elt Ideal) W2) (((cfg0.win 5).blk t).view.read (Elt Ideal) B))
      = ((cfg0.win 6).blk t).view.read (Elt Ideal) (rowsOut A X D W1 W2 B) := by
  obtain ⟨e00, e01, e10, e11, e20, e21, e30, e31, e40, e41, e50, e51, e60, e61⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  refine block_entry A X D W1 W2 B
    (((cfg0.win 0).blk t).view.read (Elt Ideal) A) (((cfg0.win 1).blk t).view.read (Elt Ideal) X)
    (((cfg0.win 2).blk t).view.read (Elt Ideal) D) (((cfg0.win 3).blk t).view.read (Elt Ideal) W1)
    (((cfg0.win 4).blk t).view.read (Elt Ideal) W2) (((cfg0.win 5).blk t).view.read (Elt Ideal) B)
    p q ((((cfg0.win 6).blk t).view.emb (ix2 p q)) 0) ((((cfg0.win 6).blk t).view.emb (ix2 p q)) 1) ?_ ?_ ?_ ?_ ?_ ?_
  · intro k
    show A (((cfg0.win 0).blk t).view.emb (ix2 p k)) = A (ix2 ((((cfg0.win 6).blk t).view.emb (ix2 p q)) 0) k)
    refine congrArg A (funext fun a => Fin.ext ?_)
    match a with
    | ⟨0, _⟩ => show win0_0.index t (0 : Fin 2) * 5000 + 1 * p.val = win0_6.index t (0 : Fin 2) * 5000 + 1 * p.val; rw [e00]
    | ⟨1, _⟩ => show win0_0.index t (1 : Fin 2) * 128 + 1 * k.val = k.val; rw [e01]; omega
  · intro k
    show X (((cfg0.win 1).blk t).view.emb (ix2 p k)) = X (ix2 ((((cfg0.win 6).blk t).view.emb (ix2 p q)) 0) k)
    refine congrArg X (funext fun a => Fin.ext ?_)
    match a with
    | ⟨0, _⟩ => show win0_1.index t (0 : Fin 2) * 5000 + 1 * p.val = win0_6.index t (0 : Fin 2) * 5000 + 1 * p.val; rw [e10]
    | ⟨1, _⟩ => show win0_1.index t (1 : Fin 2) * 128 + 1 * k.val = k.val; rw [e11]; omega
  · show D (((cfg0.win 2).blk t).view.emb (ix2 p (0 : Fin 1))) = D (ix2 ((((cfg0.win 6).blk t).view.emb (ix2 p q)) 0) (0 : Fin 1))
    refine congrArg D (funext fun a => Fin.ext ?_)
    match a with
    | ⟨0, _⟩ => show win0_2.index t (0 : Fin 2) * 5000 + 1 * p.val = win0_6.index t (0 : Fin 2) * 5000 + 1 * p.val; rw [e20]
    | ⟨1, _⟩ => show win0_2.index t (1 : Fin 2) * 1 + 1 * 0 = 0; rw [e21]
  · intro k
    show W1 (((cfg0.win 3).blk t).view.emb (ix2 k q)) = W1 (ix2 k ((((cfg0.win 6).blk t).view.emb (ix2 p q)) 1))
    refine congrArg W1 (funext fun a => Fin.ext ?_)
    match a with
    | ⟨0, _⟩ => show win0_3.index t (0 : Fin 2) * 128 + 1 * k.val = k.val; rw [e30]; omega
    | ⟨1, _⟩ => show win0_3.index t (1 : Fin 2) * 128 + 1 * q.val = win0_6.index t (1 : Fin 2) * 128 + 1 * q.val; rw [e31, e61]
  · intro k
    show W2 (((cfg0.win 4).blk t).view.emb (ix2 k q)) = W2 (ix2 k ((((cfg0.win 6).blk t).view.emb (ix2 p q)) 1))
    refine congrArg W2 (funext fun a => Fin.ext ?_)
    match a with
    | ⟨0, _⟩ => show win0_4.index t (0 : Fin 2) * 128 + 1 * k.val = k.val; rw [e40]; omega
    | ⟨1, _⟩ => show win0_4.index t (1 : Fin 2) * 128 + 1 * q.val = win0_6.index t (1 : Fin 2) * 128 + 1 * q.val; rw [e41, e61]
  · show B (((cfg0.win 5).blk t).view.emb (ix2 (0 : Fin 1) q)) = B (ix2 (0 : Fin 1) ((((cfg0.win 6).blk t).view.emb (ix2 p q)) 1))
    refine congrArg B (funext fun a => Fin.ext ?_)
    match a with
    | ⟨0, _⟩ => show win0_5.index t (0 : Fin 2) * 1 + 1 * 0 = 0; rw [e50]
    | ⟨1, _⟩ => show win0_5.index t (1 : Fin 2) * 128 + 1 * q.val = win0_6.index t (1 : Fin 2) * 128 + 1 * q.val; rw [e51, e61]

variable (m : (ℓ : Loc nD τ sig) → Buf (Elt Ideal) ℓ) (ρ : Dev nD → PrngReg)

/-- WHAT POINT `t` WRITES BACK is block `t` of `rowsOut` of the arrays as the region finds them. -/
theorem flushed_eq (c : Dev nD) (t : Fin cfg0.N) :
    (dats m 0 c).flushed 6 t = ((cfg0.win 6).blk t).view.read (Elt Ideal)
      (rowsOut (V m c main_v9) (V m c main_arg0) (V m c main_v14) (V m c main_v16) (V m c main_v18) (V m c main_v19)) := by
  rw [Value.flushed6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  exact block_read t (V m c main_v9) (V m c main_arg0) (V m c main_v14) (V m c main_v16) (V m c main_v18) (V m c main_v19)

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- Every index of the output array lies in the block of the point its row selects: row r is in block r / 5000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_6 _, ?_⟩
  rw [mem_blk]
  obtain ⟨-, -, -, -, -, -, -, -, -, -, -, -, e60, e61⟩ := idx_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e60]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e61]; omega

/-- THE OUTPUT ARRAY after the run is `rowsOut` of the arrays the region finds. -/
theorem final (c : Dev nD) : (dats m 0 c).arrAt 6 cfg0.N
    = rowsOut (V m c main_v9) (V m c main_arg0) (V m c main_v14) (V m c main_v16) (V m c main_v18) (V m c main_v19) :=
  (dats m 0 c).arrAt_eq_of_cover 6 _ (fun t _ => flushed_eq m c t) cover

end Cert.KernelIdeal.ArrayValue

end
-- ==== Proof.KernelHost.lean ====
/- The arrays the region finds, as terms of @main's arguments (any float instance: the host operations before the region
   are only composed here, never evaluated): the aggregated neighbour rows `agg` (the gathered source rows added into a
   zero array at the destination rows), the in-degrees `deg` (ones added into zeros at the destination rows) laid as a
   column, the two halves of the weight's columns, each transposed, and the bias as a row. -/
import proofs.«136580_j15152644620657_2_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The source row of every edge as a column of indices: a negative index is first moved up by the number of nodes. -/
def srcRows (x1 : (⟨S1600000, .i32⟩ : BufTy).Contents (Elt F)) : (⟨S1600000x1, .i32⟩ : BufTy).Contents (Elt F) :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- `agg[i] = Σ over the edges into i of x[source of the edge]`. -/
def agg (x0 : (⟨S100000x128, .f32⟩ : BufTy).Contents (Elt F)) (x1 x2 : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 x2)
    (Host.gather gather_S100000x128_S1600000x1_S1600000x128_1_0_n_n_0_1_1128 x0 (srcRows (F := F) x1))

/-- `deg[i]` = the number of edges into i. -/
def deg (x2 : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 x2)
    (broadcastInDim S1600000 ![] bcast_S_S1600000 (constant (F := F) S_ .f32 0x3F800000#32))

variable (m : (ℓ : Loc nD τ sig) → Buf (Elt F) ℓ)

/-- The region finds the aggregated rows in the first window's array. -/
theorem V_agg (c : Dev nD) :
    (V m c main_v9 : (⟨S100000x128, .f32⟩ : BufTy).Contents (Elt F))
      = agg (F := F) (m ((c : Thread nD τ).loc main_arg0)) (m ((c : Thread nD τ).loc main_arg1)) (m ((c : Thread nD τ).loc main_arg2)) := by
  dsimp only [Gen.V, Gen.hostOps0]; after_results <;> rfl

/-- The region finds the degrees, as a column, in the third window's array. -/
theorem V_deg (c : Dev nD) :
    (V m c main_v14 : (⟨S100000x1, .f32⟩ : BufTy).Contents (Elt F))
      = broadcastInDim S100000x1 ![0] bcast_S100000_S100000x1_0 (deg (F := F) (m ((c : Thread nD τ).loc main_arg2))) := by
  dsimp only [Gen.V, Gen.hostOps0]; after_results <;> rfl

/-- The fourth window's array: the weight's columns 0..127, transposed. -/
theorem V_w1 (c : Dev nD) :
    (V m c main_v16 : (⟨S128x128, .f32⟩ : BufTy).Contents (Elt F))
      = transpose S128x128 [1, 0] (extractStridedSlice S128x128 ![0, 0] (m ((c : Thread nD τ).loc main_arg3)) slices_S128x256_S128x128_0_0)
          transposes_S128x128_S128x128_1_0 := by
  dsimp only [Gen.V, Gen.hostOps0]; after_results <;> rfl

/-- The fifth window's array: the weight's columns 128..255, transposed. -/
theorem V_w2 (c : Dev nD) :
    (V m c main_v18 : (⟨S128x128, .f32⟩ : BufTy).Contents (Elt F))
      = transpose S128x128 [1, 0] (extractStridedSlice S128x128 ![0, 128] (m ((c : Thread nD τ).loc main_arg3)) slices_S128x256_S128x128_0_128)
          transposes_S128x128_S128x128_1_0 := by
  dsimp only [Gen.V, Gen.hostOps0]; after_results <;> rfl

/-- The sixth window's array: the bias as a row. -/
theorem V_bias (c : Dev nD) :
    (V m c main_v19 : (⟨S1x128, .f32⟩ : BufTy).Contents (Elt F))
      = broadcastInDim S1x128 ![1] bcast_S128_S1x128_1 (m ((c : Thread nD τ).loc main_arg4)) := by
  dsimp only [Gen.V, Gen.hostOps0]; after_results <;> rfl

end Cert.KernelIdeal.HostValue

end
-- ==== Proof.KernelRun.lean ====
/- The kernel's run on the extended reals, read: the output array ends at the specification `Cert.Sage.out` of the
   aggregated neighbour rows, the features, the in-degrees, the weight and the bias — the array function of the blocks
   (`ArrayValue.final`) at the arrays the host operations before the region make (`HostValue.V_…`), which is the
   specification by layout reads alone (`RowsValue.rowsOut_eq`) — and the arguments are unchanged. -/
import proofs.«136580_j15152644620657_2_alg».proof.Proof.KernelArray
import proofs.«136580_j15152644620657_2_alg».proof.Proof.KernelHost

noncomputable section

namespace Cert.KernelIdeal.RunValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The kernel's result as a function of its five arguments. -/
abbrev result (c : Dev nD) : Buf (Elt Ideal) ((c : Thread nD τ).loc main_v20) :=
  Cert.Sage.out (HostValue.agg (F := Ideal) (m ((c : Thread nD τ).loc main_arg0)) (m ((c : Thread nD τ).loc main_arg1)) (m ((c : Thread nD τ).loc main_arg2)))
    (m ((c : Thread nD τ).loc main_arg0)) (HostValue.deg (F := Ideal) (m ((c : Thread nD τ).loc main_arg2)))
    (m ((c : Thread nD τ).loc main_arg3)) (m ((c : Thread nD τ).loc main_arg4))

/-- The output array after the run is the specification of the arguments. -/
theorem final_spec (c : Dev nD) : (dats m 0 c).arrAt 6 cfg0.N = result m c := by
  rw [ArrayValue.final, HostValue.V_agg, HostValue.V_deg, HostValue.V_w1, HostValue.V_w2, HostValue.V_bias, V_main_arg0]
  exact RowsValue.rowsOut_eq _ _ _ _ _

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_spec m c), (h c).2⟩) (Cert.KernelIdeal.Value.run_blocks m ρ)

end Cert.KernelIdeal.RunValue

end
-- ==== Proof.RefRun.lean ====
/- The reference's @main read as a list of host operations, and what its run leaves in the result buffer, stated over
   NAMED stages so that the statement never has to spell a float constant whose instance nothing around it fixes:
   `agg` (the per-node sum of the gathered source rows: a scatter-add of the gathered rows into zeros), `deg` (the
   per-node in-degree: a scatter-add of ones into zeros), `invw` (1 / max(deg, 1) where deg > 0, else 0), `scaled` (a
   matrix times a per-row factor), `lin` (the concatenation [h | x] contracted with the transposed weight, plus the
   bias row). The result is `out = lin (scaled agg (invw deg)) x W b`. -/
import proofs.«136580_j15152644620657_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The source row of every edge as a column of indices: a negative index is first moved up by the number of nodes. -/
def srcRows (x1 : (⟨S1600000, .i32⟩ : BufTy).Contents (Elt F)) : (⟨S1600000x1, .i32⟩ : BufTy).Contents (Elt F) :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- `agg[i] = Σ over the edges into i of x[source of the edge]`: the gathered source rows added into a zero array at
    the destination rows. -/
def agg (x0 : (⟨S100000x128, .f32⟩ : BufTy).Contents (Elt F)) (x1 x2 : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 x2)
    (Host.gather gather_S100000x128_S1600000x1_S1600000x128_1_0_n_n_0_1_1128 x0 (srcRows (F := F) x1))

/-- `deg[i]` = the number of edges into i: ones added into a zero vector at the destination rows. -/
def deg (x2 : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 x2)
    (broadcastInDim S1600000 ![] bcast_S_S1600000 (constant (F := F) S_ .f32 0x3F800000#32))

/-- The guarded reciprocal of a degree vector: `1 / max(d, 1)` where `d > 0`, and `0` elsewhere. -/
def invw (d : (⟨S100000, .f32⟩ : BufTy).Contents (Elt F)) : (⟨S100000, .f32⟩ : BufTy).Contents (Elt F) :=
  select (cmpf .ogt d (broadcastInDim S100000 ![] bcast_S_S100000 (constant (F := F) S_ .f32 0x00000000#32)))
    (Host.divf (broadcastInDim S100000 ![] bcast_S_S100000 (constant (F := F) S_ .f32 0x3F800000#32))
      (maximumf d (broadcastInDim S100000 ![] bcast_S_S100000 (constant (F := F) S_ .f32 0x3F800000#32))))
    (broadcastInDim S100000 ![] bcast_S_S100000 (id (constant (F := F) S_ .f32 0x00000000#32)))

/-- A matrix with every row multiplied by that row's factor. -/
def scaled (a : (⟨S100000x128, .f32⟩ : BufTy).Contents (Elt F)) (v : (⟨S100000, .f32⟩ : BufTy).Contents (Elt F)) :
    (⟨S100000x128, .f32⟩ : BufTy).Contents (Elt F) :=
  mulf a (broadcastInDim S100000x128 ![0, 1] bcast_S100000x1_S100000x128_0_1
    (broadcastInDim S100000x1 ![0] bcast_S100000_S100000x1_0 v))

/-- The linear layer: the rows `[h | x]` (256 entries each) contracted with the transposed weight, plus the bias. -/
def lin (h x0 : (⟨S100000x128, .f32⟩ : BufTy).Contents (Elt F)) (x3 : (⟨S128x256, .f32⟩ : BufTy).Contents (Elt F))
    (x4 : (⟨S128, .f32⟩ : BufTy).Contents (Elt F)) : (⟨S100000x128, .f32⟩ : BufTy).Contents (Elt F) :=
  addf (Host.dotGeneral dot_S100000x256_S256x128_S100000x128_1_0_0_1_n_n none
      (concatenate S100000x256 1 [⟨S100000x128, h⟩, ⟨S100000x128, x0⟩] concatenates_S100000x128_S100000x128_S100000x256_d1)
      (transpose S256x128 [1, 0] x3 transposes_S128x256_S256x128_1_0))
    (broadcastInDim S100000x128 ![0, 1] bcast_S1x128_S100000x128_0_1 (broadcastInDim S1x128 ![1] bcast_S128_S1x128_1 x4))

/-- The reference's result as a function of its five arguments. -/
def out (x0 : (⟨S100000x128, .f32⟩ : BufTy).Contents (Elt F)) (x1 x2 : (⟨S1600000, .i32⟩ : BufTy).Contents (Elt F))
    (x3 : (⟨S128x256, .f32⟩ : BufTy).Contents (Elt F)) (x4 : (⟨S128, .f32⟩ : BufTy).Contents (Elt F)) :
    (⟨S100000x128, .f32⟩ : BufTy).Contents (Elt F) :=
  lin (scaled (agg x0 x1 x2) (invw (deg (F := F) x2))) x0 x3 x4

/-! ## @main as a list of operations, and its run -/

/-- @main's 41 operations, in order (the operations of the called `where` stand in the call's place). -/
abbrev ops : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg1 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v7 (broadcastInDim S100000x128 ![] bcast_S_S100000x128 : (⟨S_, .f32⟩ : BufTy).Contents (Elt F) → (⟨S100000x128, .f32⟩ : BufTy).Contents (Elt F)),
    unary main_arg2 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v10 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v11 (broadcastInDim S100000 ![] bcast_S_S100000 : (⟨S_, .f32⟩ : BufTy).Contents (Elt F) → (⟨S100000, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x00000000#32),
    unary main_cst_3 main_v14 (broadcastInDim S100000 ![] bcast_S_S100000 : (⟨S_, .f32⟩ : BufTy).Contents (Elt F) → (⟨S100000, .f32⟩ : BufTy).Contents (Elt F)),
    binary main_v13 main_v14 main_v15 (cmpf .ogt : (⟨S100000, .f32⟩ : BufTy).Contents (Elt F) → (⟨S100000, .f32⟩ : BufTy).Contents (Elt F) → (⟨S100000, .i1⟩ : BufTy).Contents (Elt F)),
    nullary main_cst_4 (constant S_ .f32 0x3F800000#32),
    unary main_cst_4 main_v16 (broadcastInDim S100000 ![] bcast_S_S100000 : (⟨S_, .f32⟩ : BufTy).Contents (Elt F) → (⟨S100000, .f32⟩ : BufTy).Contents (Elt F)),
    binary main_v13 main_v16 main_v17 (maximumf : (⟨S100000, .f32⟩ : BufTy).Contents (Elt F) → (⟨S100000, .f32⟩ : BufTy).Contents (Elt F) → (⟨S100000, .f32⟩ : BufTy).Contents (Elt F)),
    nullary main_cst_5 (constant S_ .f32 0x3F800000#32),
    unary main_cst_5 main_v18 (broadcastInDim S100000 ![] bcast_S_S100000 : (⟨S_, .f32⟩ : BufTy).Contents (Elt F) → (⟨S100000, .f32⟩ : BufTy).Contents (Elt F)),
    binary main_v18 main_v17 main_v19 (Host.divf : (⟨S100000, .f32⟩ : BufTy).Contents (Elt F) → (⟨S100000, .f32⟩ : BufTy).Contents (Elt F) → (⟨S100000, .f32⟩ : BufTy).Contents (Elt F)),
    nullary main_cst_6 (constant S_ .f32 0x00000000#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v15) (TRef.of (T := ⟨S100000, .f32⟩) main_v19) (TRef.of (T := ⟨S100000, .f32⟩) main_call0_v1) (TRef.of (T := ⟨S100000, .f32⟩) main_v20) select,
    unary main_v20 main_v21 (broadcastInDim S100000x1 ![0] bcast_S100000_S100000x1_0 : (⟨S100000, .f32⟩ : BufTy).Contents (Elt F) → (⟨S100000x1, .f32⟩ : BufTy).Contents (Elt F)),
    unary main_v21 main_v22 (broadcastInDim S100000x128 ![0, 1] bcast_S100000x1_S100000x128_0_1 : (⟨S100000x1, .f32⟩ : BufTy).Contents (Elt F) → (⟨S100000x128, .f32⟩ : BufTy).Contents (Elt F)),
    binary main_v9 main_v22 main_v23 (mulf : (⟨S100000x128, .f32⟩ : BufTy).Contents (Elt F) → (⟨S100000x128, .f32⟩ : BufTy).Contents (Elt F) → (⟨S100000x128, .f32⟩ : BufTy).Contents (Elt F)),
    binary main_v23 main_arg0 main_v24 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg3 main_v25 ((transpose S256x128 [1, 0] · transposes_S128x256_S256x128_1_0) : (⟨S128x256, .f32⟩ : BufTy).Contents (Elt F) → (⟨S256x128, .f32⟩ : BufTy).Contents (Elt F)),
    binary main_v24 main_v25 main_v26 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg4 main_v27 (broadcastInDim S1x128 ![1] bcast_S128_S1x128_1 : (⟨S128, .f32⟩ : BufTy).Contents (Elt F) → (⟨S1x128, .f32⟩ : BufTy).Contents (Elt F)),
    unary main_v27 main_v28 (broadcastInDim S100000x128 ![0, 1] bcast_S1x128_S100000x128_0_1 : (⟨S1x128, .f32⟩ : BufTy).Contents (Elt F) → (⟨S100000x128, .f32⟩ : BufTy).Contents (Elt F)),
    binary main_v26 main_v28 main_v29 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., binary_bufs_sub .., unary_bufs_sub .., unary_bufs_sub .., binary_bufs_sub ..⟩

set_option maxRecDepth 8192 in
set_option maxHeartbeats 2000000 in
/-- On every device, from any memory with zero counters: every weakly fair execution of @main terminates with the result
    buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v29).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefValue

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.RefRead.lean ====
/- The reference's result read entry by entry on the extended reals. The host's contraction over the 256 columns of
   [h | x] against the transposed weight splits, at the joint of the concatenation, into the contraction of h against
   the weight's columns 0..127 and of x against its columns 128..255 (a sum over two ranges laid end to end: only
   commutative-monoid laws); the per-row factor is the guarded reciprocal ρ of the row's degree; the bias row is
   broadcast down the rows. So the reference's result is the specification `Cert.Sage.out` of the aggregated rows, the
   features, the degrees, the weight and the bias. -/
import proofs.«136580_j15152644620657_2_alg».proof.Proof.RefRun
import proofs.«136580_j15152644620657_2_alg».proof.Proof.Spec
import proofs.«136580_j15152644620657_2_alg».proof.Proof.LibPlainDot
import proofs.«136580_j15152644620657_2_alg».proof.Proof.LibBroadcastReads
import Idealize.ShloMosaic.Lib.Pipeline.Value
import Idealize.ShloMosaic.Lib.ValueLayout

noncomputable section

open scoped BigOperators

namespace Cert.ReferenceIdeal.RefValue

open Cert.ReferenceIdeal Cert.ReferenceIdeal.Gen Idealize.ShloMosaic Idealize.ShloMosaic.ValueIdx

/-- The guarded reciprocal of the degree vector at node `n` is ρ of the degree there. -/
theorem invw_apply (d : FVec Ideal S100000 .f32) (n : Fin 100000) :
    invw (F := Ideal) d (ix1 n) = Cert.Sage.rho (d (ix1 n)) := rfl

/-- A matrix scaled row by row, at `(n, k)`: the entry times the row's factor. -/
theorem scaled_apply (a : FVec Ideal S100000x128 .f32) (v : FVec Ideal S100000 .f32) (n : Fin 100000) (k : Fin 128) :
    scaled (F := Ideal) a v (ix2 n k) = a (ix2 n k) * v (ix1 n) := by
  unfold scaled
  rw [mulf_apply]
  exact congrArg (a (ix2 n k) * ·)
    ((Cert.Lib.BroadcastReads.broadcastInDim_a1_ab_apply _ bcast_S100000x1_S100000x128_0_1 n k).trans
      (Cert.Lib.BroadcastReads.broadcastInDim_a_a1_apply v bcast_S100000_S100000x1_0 n 0))

/-- The host's contraction of a `100000 × 256` matrix with a `256 × 128` one, at `(n, o)`. -/
theorem dot_apply (l : FVec Ideal S100000x256 .f32) (r : FVec Ideal S256x128 .f32) (n : Fin 100000) (o : Fin 128) :
    Host.dotGeneral dot_S100000x256_S256x128_S100000x128_1_0_0_1_n_n none l r (ix2 n o)
      = ∑ k : Fin 256, l (ix2 n k) * r (ix2 k o) :=
  Cert.Lib.PlainDot.plain_dotGeneral_apply (M := 100000) (K := 256) (N := 128) none .single l r n o

/-- The left 128 columns of `[h | x]` are `h`'s. -/
theorem cat_left (h x0 : FVec Ideal S100000x128 .f32) (n : Fin 100000) (k : Fin 128) :
    concatenate S100000x256 1 [⟨S100000x128, h⟩, ⟨S100000x128, x0⟩] concatenates_S100000x128_S100000x128_S100000x256_d1
      (ix2 n (Fin.castAdd 128 k)) = h (ix2 n k) :=
  concatenate_pair_apply_left (1 : Fin 2) h x0 concatenates_S100000x128_S100000x128_S100000x256_d1
    (ix2 n (Fin.castAdd 128 k)) rfl (ix2 n k) (fun b => match b with | ⟨0, _⟩ => rfl | ⟨1, _⟩ => rfl)

/-- The right 128 columns of `[h | x]` are `x`'s. -/
theorem cat_right (h x0 : FVec Ideal S100000x128 .f32) (n : Fin 100000) (k : Fin 128) :
    concatenate S100000x256 1 [⟨S100000x128, h⟩, ⟨S100000x128, x0⟩] concatenates_S100000x128_S100000x128_S100000x256_d1
      (ix2 n (Fin.natAdd 128 k)) = x0 (ix2 n k) :=
  concatenate_pair_apply_right (1 : Fin 2) h x0 concatenates_S100000x128_S100000x128_S100000x256_d1
    (ix2 n (Fin.natAdd 128 k)) rfl rfl (ix2 n k)
    (fun b => match b with | ⟨0, _⟩ => fun _ => rfl | ⟨1, _⟩ => fun hne => absurd rfl hne)
    (by show k.val + 128 = 128 + k.val; omega)

/-- The linear layer at `(n, o)`: the two half-contractions against the weight's two column halves, plus the bias. -/
theorem lin_apply (h x0 : FVec Ideal S100000x128 .f32) (x3 : FVec Ideal S128x256 .f32) (x4 : FVec Ideal S128 .f32)
    (n : Fin 100000) (o : Fin 128) :
    lin (F := Ideal) h x0 x3 x4 (ix2 n o)
      = (∑ k : Fin 128, h (ix2 n k) * x3 (ix2 o (Fin.castAdd 128 k))
          + ∑ k : Fin 128, x0 (ix2 n k) * x3 (ix2 o (Fin.natAdd 128 k))) + x4 (ix1 o) := by
  unfold lin
  rw [addf_apply, dot_apply]
  have hb : broadcastInDim S100000x128 ![0, 1] bcast_S1x128_S100000x128_0_1 (broadcastInDim S1x128 ![1] bcast_S128_S1x128_1 x4) (ix2 n o)
      = x4 (ix1 o) :=
    (Cert.Lib.BroadcastReads.broadcastInDim_1b_ab_apply _ bcast_S1x128_S100000x128_0_1 n o).trans
      (Cert.Lib.BroadcastReads.broadcastInDim_b_1b_apply x4 bcast_S128_S1x128_1 0 o)
  rw [hb]
  refine congrArg (· + x4 (ix1 o)) ?_
  refine (Cert.Lib.PlainDot.sum_two_ranges 128 128 _).trans ?_
  refine congrArg₂ (· + ·) (Finset.sum_congr rfl fun k _ => ?_) (Finset.sum_congr rfl fun k _ => ?_)
  · rw [cat_left]
    exact congrArg (h (ix2 n k) * ·) (transpose_ix2_apply x3 transposes_S128x256_S256x128_1_0 (Fin.castAdd 128 k) o)
  · rw [cat_right]
    exact congrArg (x0 (ix2 n k) * ·) (transpose_ix2_apply x3 transposes_S128x256_S256x128_1_0 (Fin.natAdd 128 k) o)

/-- The linear layer of a row-scaled matrix, as an array, is the specification of that matrix, the features, the
    degrees, the weight and the bias — for ANY matrix `a` and degree vector `d` (nothing is asked of how they were made). -/
theorem lin_scaled_eq (a x0 : FVec Ideal S100000x128 .f32) (d : FVec Ideal S100000 .f32) (x3 : FVec Ideal S128x256 .f32)
    (x4 : FVec Ideal S128 .f32) :
    lin (F := Ideal) (scaled (F := Ideal) a (invw (F := Ideal) d)) x0 x3 x4 = Cert.Sage.out a x0 d x3 x4 := by
  funext i
  obtain ⟨n, o, rfl⟩ : ∃ (n : Fin 100000) (o : Fin 128), i = ix2 n o := ⟨i 0, i 1, eq_ix2 i⟩
  rw [Cert.Sage.out_ix2, lin_apply]
  unfold Cert.Sage.outAt
  simp only [scaled_apply, invw_apply]

/-- THE REFERENCE'S RESULT is the specification of the aggregated neighbour rows, the features, the degrees, the weight
    and the bias. -/
theorem out_eq (x0 : FVec Ideal S100000x128 .f32) (x1 x2 : IVec S1600000 32) (x3 : FVec Ideal S128x256 .f32) (x4 : FVec Ideal S128 .f32) :
    out (F := Ideal) x0 x1 x2 x3 x4 = Cert.Sage.out (agg (F := Ideal) x0 x1 x2) x0 (deg (F := Ideal) x2) x3 x4 :=
  lin_scaled_eq (agg (F := Ideal) x0 x1 x2) x0 (deg (F := Ideal) x2) x3 x4

end Cert.ReferenceIdeal.RefValue

end
-- ==== Proof.Claims.lean ====
/- The five claims. The three frames are the generated ones (the reference's is its run with the result dropped); the
   idealization rewrote nothing, so `preserves` is trivial; and on the extended reals both programs end at the ONE
   specification `Cert.Sage.out` of the aggregated neighbour rows, the features, the in-degrees, the weight and the bias:
   the kernel by its row blocks and its two half-contractions, the reference by one contraction over the concatenated
   rows split at the joint. The aggregated rows and the in-degrees are the same host operations of the same arguments in
   both programs and are never opened. No law beyond the commutative-monoid laws of + is used, so the precondition is
   not needed for the value. -/
import proofs.«136580_j15152644620657_2_alg».proof.Defs
import proofs.«136580_j15152644620657_2_alg».proof.Proof.Gen.Kernel.Frame
import proofs.«136580_j15152644620657_2_alg».proof.Proof.Gen.Pre_finite_inputs
import proofs.«136580_j15152644620657_2_alg».proof.Proof.KernelRun
import proofs.«136580_j15152644620657_2_alg».proof.Proof.RefRead

noncomputable section

open Idealize.ShloMosaic Idealize.ShloMosaic.TcCoe Idealize.SL.Sem

namespace Cert.Proof.SageClaims

/-- The aggregated rows are one term in both programs (the two programs' dimension records have the same fields). -/
theorem agg_eq {F : FTy → Type} [FloatOps F] (x0 : FVec F ⟨2, ![100000, 128]⟩ .f32) (x1 x2 : IVec ⟨1, ![1600000]⟩ 32) :
    Cert.ReferenceIdeal.RefValue.agg (F := F) x0 x1 x2 = Cert.KernelIdeal.HostValue.agg (F := F) x0 x1 x2 := rfl

/-- The in-degrees are one term in both programs. -/
theorem deg_eq {F : FTy → Type} [FloatOps F] (x2 : IVec ⟨1, ![1600000]⟩ 32) :
    Cert.ReferenceIdeal.RefValue.deg (F := F) x2 = Cert.KernelIdeal.HostValue.deg (F := F) x2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.out_eq, (hagree c).1, (hagree c).2.1, (hagree c).2.2.1, (hagree c).2.2.2.1, (hagree c).2.2.2.2,
    agg_eq, deg_eq]

end Cert.Proof.SageClaims

end
-- ==== Proof.lean ====
/- A GraphSAGE-style layer: for 100000 nodes with 128 features and 1600000 edges,
     agg[i]  = Σ over the edges (i ← j) of x[j]           (a gather of the source rows, then a scatter-add at the destinations)
     deg[i]  = the number of edges into i                 (a scatter-add of ones)
     out[i]  = [ agg[i] · ρ(deg[i]) | x[i] ] · Wᵀ + b,    ρ(t) = 1 / max(t, 1) if t > 0, else 0,
   with W of shape 128 × 256 and b of length 128. The kernel computes agg and deg on the host exactly as the reference
   does, and then, over 20 blocks of 5000 rows, the two half-contractions (agg · ρ(deg)) · W[:, :128]ᵀ + x · W[:, 128:]ᵀ + b
   on the matrix unit; the reference contracts the concatenated 256-long rows with Wᵀ once. On the extended reals the two
   are the same number entry by entry: a sum over 256 indices is the sum over the first 128 plus the sum over the last
   128 (Proof/RefRead.lean), the changes of float format are the identity and the row blocks tile the rows
   (Proof/KernelBody.lean, Proof/KernelArray.lean). Both sides are brought to the one specification Proof/Spec.lean
   states; Proof/Claims.lean assembles the five claims. -/
import proofs.«136580_j15152644620657_2_alg».proof.Defs
import proofs.«136580_j15152644620657_2_alg».proof.Proof.Gen.Kernel
import proofs.«136580_j15152644620657_2_alg».proof.Proof.Gen.KernelIdeal
import proofs.«136580_j15152644620657_2_alg».proof.Proof.Gen.ReferenceIdeal
import proofs.«136580_j15152644620657_2_alg».proof.Proof.Gen.Pre_finite_inputs
import proofs.«136580_j15152644620657_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, SageClaims.preserves, SageClaims.algebraic⟩

end Cert.Proof

end
